-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) (main_arg1 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  main_v8
-- ==== Kernel.lean ====
abbrev S8x4096x512 : Shape := ⟨3, ![8, 4096, 512]⟩
abbrev S8x4096x4096 : Shape := ⟨3, ![8, 4096, 4096]⟩
abbrev S1x2048x512 : Shape := ⟨3, ![1, 2048, 512]⟩
abbrev S1x512x512 : Shape := ⟨3, ![1, 512, 512]⟩
abbrev S2048x512 : Shape := ⟨2, ![2048, 512]⟩
abbrev S512x512 : Shape := ⟨2, ![512, 512]⟩
abbrev S2048 : Shape := ⟨1, ![2048]⟩
abbrev S2048x1 : Shape := ⟨2, ![2048, 1]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x4096, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S1x2048x512, .f32⟩
  | .local _ .vmem, ⟨5, _⟩ => ⟨S1x2048x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S2048x512_S2048 : S2048x512.Reduces [1] S2048
  shapeCasts_S2048_S2048x1 : S2048.ShapeCasts S2048x1
  reduces_S512x512_S512 : S512x512.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x512_p1_0_S512x512 : S512x512.Transposes [1, 0] S512x512
  broadcasts_S2048x1_S2048x512 : S2048x1.Broadcasts S2048x512
  broadcasts_S1x512_S2048x512 : S1x512.Broadcasts S2048x512
  shapeCasts_S2048x512_S1x2048x512 : S2048x512.ShapeCasts S1x2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x4096x512.size a
  hwx0_0 : ∀ i : grid0.Coords, EltTy.bits .f32 = 32 ∨ (Rect.block (s := S8x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x4096x512.size a
  hwx0_1 : ∀ i : grid0.Coords, EltTy.bits .f32 = 32 ∨ (Rect.block (s := S8x4096x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x4096x4096.size a
  hwx0_2 : ∀ i : grid0.Coords, EltTy.bits .f32 = 32 ∨ (Rect.block (s := S8x4096x4096) S1x2048x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S_, .f32⟩
  | .hbm, ⟨4, _⟩ => ⟨S8x4096, .f32⟩
  | .hbm, ⟨5, _⟩ => ⟨S8x4096x512, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  dot_S8x4096x512_S8x4096x512_S8x4096x4096_2_2_1_1_0_0_wf : DotDims.WF S8x4096x512 S8x4096x512 S8x4096x4096 [2] [2] [1] [1] [0] [0]

variable [Facts₀]

def dot_S8x4096x512_S8x4096x512_S8x4096x4096_2_2_1_1_0_0 : DotDims S8x4096x512 S8x4096x512 S8x4096x4096 where
  lhsContracting := [2]
  rhsContracting := [2]
  lhsNonContracting := [1]
  rhsNonContracting := [1]
  lhsBatch := [0]
  rhsBatch := [0]
  wf := dot_S8x4096x512_S8x4096x512_S8x4096x4096_2_2_1_1_0_0_wf

class Facts : Prop extends Facts₀ where

variable [Facts]
-- ==== Proof.Spec.lean ====
/-
  Negative pairwise Euclidean distance, stated once, index by index, on the extended reals.

  For two stacks of 8 batches of 4096 vectors of length 512, entry (b, n, m) of the result is
      -sqrt (max (|x(b,n)|^2 + |y(b,m)|^2 - 2 * <x(b,n), y(b,m)>) 0)
  where |v|^2 is the sum of the squares of v's 512 coordinates and <v, w> the sum of the 512 coordinate products:
  the squared distance by the expansion |v - w|^2 = |v|^2 + |w|^2 - 2<v, w>, clamped at zero before the root.
  The factor 2 is kept as the single-precision word of 2.0; nothing below evaluates it.
-/
import Idealize.ShloMosaic.PureOps.Ideal
import Idealize.ShloMosaic.Lib.ValueIdx

noncomputable section

open scoped BigOperators

namespace Cert.L2Sim

open Idealize.ShloMosaic Idealize.ShloMosaic.ValueIdx

/-- The shape of each argument: 8 batches of 4096 vectors of length 512. -/
abbrev SVecs : Shape := ⟨3, ![8, 4096, 512]⟩
/-- The shape of the result: per batch, one entry for each pair of vectors. -/
abbrev SPairs : Shape := ⟨3, ![8, 4096, 4096]⟩

/-- The squared length of vector r of batch b. -/
def sqLen (x : SVecs.Idx → EReal) (b : Fin 8) (r : Fin 4096) : EReal :=
  ∑ k : Fin 512, x (ix3 b r k) * x (ix3 b r k)

/-- The inner product of vector n of batch b of x with vector m of batch b of y. -/
def inner (x y : SVecs.Idx → EReal) (b : Fin 8) (n m : Fin 4096) : EReal :=
  ∑ k : Fin 512, x (ix3 b n k) * y (ix3 b m k)

/-- The clamped expansion of the squared distance, rooted and negated, at batch b and the pair (n, m). -/
def negDistAt (x y : SVecs.Idx → EReal) (b : Fin 8) (n m : Fin 4096) : EReal :=
  -(Ideal.sqrt (max (sqLen x b n + sqLen y b m - Ideal.ofBits .f32 0x40000000#32 * inner x y b n m) 0))

/-- The whole result array. -/
def negDist (x y : SVecs.Idx → EReal) : SPairs.Idx → EReal :=
  fun i => negDistAt x y (i 0) (i 1) (i 2)

theorem negDist_ix3 (x y : SVecs.Idx → EReal) (b : Fin 8) (n m : Fin 4096) :
    negDist x y (ix3 b n m) = negDistAt x y b n m := rfl

end Cert.L2Sim

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.Payload.lean ====
/-
  What the kernel body stores, read at one entry of its block.

  The body loads a block of 2048 vectors (as 1 x 2048 x 512) and a block of 512 vectors (as 1 x 512 x 512). Entry
  (p, q) of what it stores is
      0 - sqrt (max (|u_p|^2 + |w_q|^2 - 2 * <u_p, w_q>) 0),
  where u_p is vector p of the first block and w_q vector q of the second:
    * |u_p|^2 is a lane sum of squares, kept as a column and broadcast across the 512 columns;
    * |w_q|^2 is a lane sum of squares, kept as a column, transposed to a row and broadcast down the 2048 rows;
    * <u_p, w_q> is entry (p, q) of the matrix-unit product of the first block with the transposed second block,
      accumulated from zero; rounding the operands to a narrower format is the identity on the extended reals.
  Subtracting from zero is negation.
-/
import proofs.«176342_j37383395344617_2_alg».proof.Proof.Gen.KernelIdeal.Skeleton
import proofs.«176342_j37383395344617_2_alg».proof.Proof.LibKeepdims
import proofs.«176342_j37383395344617_2_alg».proof.Proof.LibDotIx2
import proofs.«176342_j37383395344617_2_alg».proof.Proof.LibRowReduce
import Idealize.ShloMosaic.Lib.ValueLayout
import Idealize.ShloMosaic.Lib.ValueIdx
import Idealize.ShloMosaic.PureOps.Ideal.Laws

noncomputable section

open scoped BigOperators

namespace Cert.L2Sim.Body

open Idealize.ShloMosaic Idealize.ShloMosaic.ValueIdx
open Cert.KernelIdeal Cert.KernelIdeal.Gen

/-- The body's product contracts the second axis of its left operand with the first axis of its right operand and
    batches nothing. -/
theorem plain : PlainDot dot_S2048x512_S512x512_S2048x512_1_0_0_1_n_n where
  rank := rfl
  size := rfl
  l0 := fun j q => by
    unfold DotDims.lhsIdx
    rw [dif_neg (show ¬(0 : Fin S2048x512.rank) ∈ dot_S2048x512_S512x512_S2048x512_1_0_0_1_n_n.lhsBatch by decide),
      dif_pos (show (0 : Fin S2048x512.rank) ∈ dot_S2048x512_S512x512_S2048x512_1_0_0_1_n_n.lhsNonContracting by decide)]
    rfl
  l1 := fun j q => dot_S2048x512_S512x512_S2048x512_1_0_0_1_n_n.lhsIdx_val_of_single rfl j q
  r0 := fun j q => dot_S2048x512_S512x512_S2048x512_1_0_0_1_n_n.rhsIdx_val_of_single rfl j q
  r1 := fun j q => by
    unfold DotDims.rhsIdx
    rw [dif_neg (show ¬(1 : Fin S512x512.rank) ∈ dot_S2048x512_S512x512_S2048x512_1_0_0_1_n_n.rhsBatch by decide),
      dif_pos (show (1 : Fin S512x512.rank) ∈ dot_S2048x512_S512x512_S2048x512_1_0_0_1_n_n.rhsNonContracting by decide)]
    rfl

/-- The column of squared lengths of the first block's vectors, broadcast across the columns: at (p, q) it is the
    squared length of vector p. -/
theorem rowNorms_at (v1 : FVec Ideal S2048x512 .f32) (p : Fin 2048) (q : Fin 512) :
    broadcastTo S2048x512 (shapeCast S2048x1 (multiReduction .add [1] S2048 (mulf v1 v1) 0x00000000#32
        reduces_S2048x512_S2048 (.inl rfl) rfl) shapeCasts_S2048_S2048x1) broadcasts_S2048x1_S2048x512 (ix2 p q)
      = ∑ j : Fin 512, v1 (ix2 p j) * v1 (ix2 p j) :=
  (broadcastTo_a1_ab_apply _ _ p q).trans <|
    (shapeCast_a_a1_apply _ _ p 0).trans <|
      multiReduction_add_row (mulf v1 v1) _ _ _ _ p

/-- The column of squared lengths of the second block's vectors, turned into a row and broadcast down the rows: at
    (p, q) it is the squared length of vector q. -/
theorem colNorms_at (v3 : FVec Ideal S512x512 .f32) (p : Fin 2048) (q : Fin 512) :
    broadcastTo S2048x512 (transpose S1x512 [1, 0] (shapeCast S512x1 (multiReduction .add [1] S512 (mulf v3 v3) 0x00000000#32
        reduces_S512x512_S512 (.inl rfl) rfl) shapeCasts_S512_S512x1) transposes_S512x1_p1_0_S1x512)
        broadcasts_S1x512_S2048x512 (ix2 p q)
      = ∑ j : Fin 512, v3 (ix2 q j) * v3 (ix2 q j) :=
  (broadcastTo_1b_ab_apply _ _ p q).trans <|
    (transpose_ix2_apply _ _ (0 : Fin 1) q).trans <|
      (shapeCast_a_a1_apply _ _ q 0).trans <|
        multiReduction_add_row (mulf v3 v3) _ _ _ _ q

/-- The product of the first block with the transposed second block, accumulated from zero: at (p, q) it is the inner
    product of vector p of the first block with vector q of the second. -/
theorem cross_at (v1 : FVec Ideal S2048x512 .f32) (v3 : FVec Ideal S512x512 .f32) (p : Fin 2048) (q : Fin 512) :
    matmul dot_S2048x512_S512x512_S2048x512_1_0_0_1_n_n none (truncf .bf16 v1 bitsLt_bf16_f32)
        (transpose S512x512 [1, 0] (truncf .bf16 v3 bitsLt_bf16_f32) transposes_S512x512_p1_0_S512x512)
        (constant S2048x512 .f32 0x00000000#32) (ix2 p q)
      = ∑ k : Fin 512, v1 (ix2 p k) * v3 (ix2 q k) :=
  (matmul_zero_ix2_any plain none _ _ p q).trans
    (Finset.sum_congr rfl fun k _ => congrArg (v1 (ix2 p k) * ·) (transpose_ix2_apply _ _ k q))

/-- Entry (p, q) of the stored block, from the two loaded blocks. -/
theorem payload_at (x0 : Vec Ideal S1x2048x512 .f32) (x1 : Vec Ideal S1x512x512 .f32) (z : Fin 1) (p : Fin 2048) (q : Fin 512) :
    k0_pay1 (F := Ideal) x0 x1 (ix3 z p q)
      = -(Ideal.sqrt (max ((∑ j : Fin 512, x0 (ix3 (0 : Fin 1) p j) * x0 (ix3 (0 : Fin 1) p j))
            + (∑ j : Fin 512, x1 (ix3 (0 : Fin 1) q j) * x1 (ix3 (0 : Fin 1) q j))
          - Ideal.ofBits .f32 0x40000000#32 * ∑ k : Fin 512, x0 (ix3 (0 : Fin 1) p k) * x1 (ix3 (0 : Fin 1) q k)) 0)) := by
  unfold k0_pay1
  refine (shapeCast_ab_1ab_apply _ _ z p q).trans ?_
  show Ideal.ofBits .f32 0x00000000#32 - Ideal.sqrt (max ((_ + _) - Ideal.ofBits .f32 0x40000000#32 * _) (Ideal.ofBits .f32 0x00000000#32)) = _
  rw [rowNorms_at, colNorms_at, cross_at, Ideal.ofBits_zero_f32, zero_sub]
  simp only [shapeCast_1ab_ab_apply]

end Cert.L2Sim.Body

end
-- ==== Proof.Blocks.lean ====
/-
  From blocks to the whole array.

  The grid has 8 x 2 x 8 points (b, s, u). At point (b, s, u) the kernel reads vectors 2048 s .. 2048 s + 2047 of batch
  b of the first argument and vectors 512 u .. 512 u + 511 of batch b of the second, and writes back the 2048 x 512
  tile of batch b of the result whose rows are the first range and whose columns are the second. Entry (p, q) of what
  it writes is the negative distance between vector p of the first block and vector q of the second, that is, entry
  (b, 2048 s + p, 512 u + q) of the whole-array specification. Every entry (b, n, m) of the result lies in the tile of
  the point (b, n / 2048, m / 512), so the tiles cover the array and the array ends holding the specification.
-/
import proofs.«176342_j37383395344617_2_alg».proof.Proof.Gen.KernelIdeal.Value
import proofs.«176342_j37383395344617_2_alg».proof.Proof.Payload
import proofs.«176342_j37383395344617_2_alg».proof.Proof.Spec
import Idealize.ShloMosaic.Lib.Pipeline.Value

noncomputable section

open scoped BigOperators

namespace Cert.L2Sim.Blocks

open Cert.KernelIdeal Cert.KernelIdeal.Gen Idealize.ShloMosaic Idealize.ShloMosaic.TcCoe Idealize.SL.Sem
open Idealize.ShloMosaic.ValueIdx Cert.L2Sim Cert.L2Sim.Body
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- Entry (p, q) of the stored block is entry (b, n, m) of the specification, once vector p of the first loaded block
    is vector n of batch b of the first array and vector q of the second loaded block is vector m of batch b of the
    second array. -/
theorem block_entry (X0 X1 : SVecs.Idx → EReal) (x0 : Vec Ideal S1x2048x512 .f32) (x1 : Vec Ideal S1x512x512 .f32)
    (z : Fin 1) (p : Fin 2048) (q : Fin 512) (b : Fin 8) (n k : Fin 4096)
    (h0 : ∀ j : Fin 512, x0 (ix3 (0 : Fin 1) p j) = X0 (ix3 b n j))
    (h1 : ∀ j : Fin 512, x1 (ix3 (0 : Fin 1) q j) = X1 (ix3 b k j)) :
    k0_pay1 (F := Ideal) x0 x1 (ix3 z p q) = negDist X0 X1 (ix3 b n k) := by
  rw [payload_at, negDist_ix3]
  unfold negDistAt sqLen inner
  simp only [h0, h1]

/-- The printed index maps, decided over the 128 grid points: the first input follows the output's batch and row
    tile, the second input the output's batch and column tile, neither moves along the vectors' own axis; and the
    ranges of the output's tile indices. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 7 ∧ win0_2.index t (1 : Fin 3) ≤ 1 ∧ win0_2.index t (2 : Fin 3) ≤ 7 :=
  (by decide +kernel : ∀ t : Fin grid0.N, _)

/-- Every tile of the result is some point's. -/
theorem idx_onto : ∀ (q0 : Fin 8) (q1 : Fin 2) (q2 : Fin 8), ∃ t : Fin cfg0.N, win0_2.index t = ![q0.val, q1.val, q2.val] :=
  (by decide +kernel : ∀ (q0 : Fin 8) (q1 : Fin 2) (q2 : Fin 8), ∃ t : Fin grid0.N, win0_2.index t = ![q0.val, q1.val, q2.val])

/-- What point t writes back is tile t of the specification of the two argument arrays. -/
theorem flushed_eq (c : Dev nD) (t : Fin cfg0.N) :
    (dats m 0 c).flushed 2 t
      = ((cfg0.win 2).blk t).view.read (Elt Ideal) (negDist (V m c main_arg0) (V m c main_arg1)) := by
  rw [Cert.KernelIdeal.Value.flushed2]
  unfold out0_2
  rw [View.canon_unit_zero zero_offsets]
  simp only [View.ld_unit_zero (S := S1x2048x512) zero_offsets, View.ld_unit_zero (S := S1x512x512) zero_offsets]
  obtain ⟨e0, e1, e2, e3, e4, e5, -, -, -⟩ := idx_facts t
  funext y
  have hy0 : (y 0).val < 1 := (y 0).isLt
  show k0_pay1 (F := Ideal) (iblk m c 0 t) (iblk m c 1 t) y
    = negDist (V m c main_arg0) (V m c main_arg1) (((cfg0.win 2).blk t).view.emb y)
  refine (congrArg (k0_pay1 (F := Ideal) (iblk m c 0 t) (iblk m c 1 t)) (eq_ix3 (y : S1x2048x512.Idx))).trans ?_
  refine (block_entry (V m c main_arg0) (V m c main_arg1) (iblk m c 0 t) (iblk m c 1 t) (y 0) (y 1) (y 2)
      ((((cfg0.win 2).blk t).view.emb y : SPairs.Idx) 0) ((((cfg0.win 2).blk t).view.emb y : SPairs.Idx) 1)
      ((((cfg0.win 2).blk t).view.emb y : SPairs.Idx) 2) ?_ ?_).trans
    (congrArg (negDist (V m c main_arg0) (V m c main_arg1))
      (eq_ix3 (((cfg0.win 2).blk t).view.emb y : SPairs.Idx)).symm)
  · -- vector (y 1) of the first block is vector 2048 s + (y 1) of batch b of the first array
    intro j
    show V m c main_arg0 (((cfg0.win 0).blk t).view.emb (ix3 (0 : Fin 1) (y 1) j)) = V m c main_arg0 _
    refine congrArg (V m c main_arg0) (funext fun a => Fin.ext ?_)
    match a with
    | ⟨0, _⟩ =>
      show win0_0.index t (0 : Fin 3) * 1 + 1 * 0 = win0_2.index t (0 : Fin 3) * 1 + 1 * (y 0).val
      omega
    | ⟨1, _⟩ =>
      show win0_0.index t (1 : Fin 3) * 2048 + 1 * (y 1).val = win0_2.index t (1 : Fin 3) * 2048 + 1 * (y 1).val
      omega
    | ⟨2, _⟩ =>
      show win0_0.index t (2 : Fin 3) * 512 + 1 * j.val = j.val
      omega
  · -- vector (y 2) of the second block is vector 512 u + (y 2) of batch b of the second array
    intro j
    show V m c main_arg1 (((cfg0.win 1).blk t).view.emb (ix3 (0 : Fin 1) (y 2) j)) = V m c main_arg1 _
    refine congrArg (V m c main_arg1) (funext fun a => Fin.ext ?_)
    match a with
    | ⟨0, _⟩ =>
      show win0_1.index t (0 : Fin 3) * 1 + 1 * 0 = win0_2.index t (0 : Fin 3) * 1 + 1 * (y 0).val
      omega
    | ⟨1, _⟩ =>
      show win0_1.index t (1 : Fin 3) * 512 + 1 * (y 2).val = win0_2.index t (2 : Fin 3) * 512 + 1 * (y 2).val
      omega
    | ⟨2, _⟩ =>
      show win0_1.index t (2 : Fin 3) * 512 + 1 * j.val = j.val
      omega

/-- An index of the result is in point t's tile iff each coordinate is in the tile's range on its axis. -/
theorem mem_tile (t : Fin cfg0.N) (i : S8x4096x4096.Idx) :
    i ∈ ((cfg0.win 2).blk t).view.set ↔ ∀ a : Fin 3, win0_2.index t a * S1x2048x512.size a ≤ (i a).val
      ∧ (i a).val < win0_2.index t a * S1x2048x512.size a + S1x2048x512.size a := by
  show i ∈ ((View.whole main_v0).slice (win0_2.rect t)).set ↔ _
  rw [View.set_slice_whole, Rect.mem_set_unit]
  exact Iff.rfl

/-- Every index of the result is in some point's tile: that of its batch, its row's range and its column's range. -/
theorem tiles_cover (i : S8x4096x4096.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 1).val / 2048, by omega⟩ ⟨(i 2).val / 512, by omega⟩
  have q0 : win0_2.index t (0 : Fin 3) = (i 0).val := congrFun ht 0
  have q1 : win0_2.index t (1 : Fin 3) = (i 1).val / 2048 := congrFun ht 1
  have q2 : win0_2.index t (2 : Fin 3) = (i 2).val / 512 := congrFun ht 2
  refine ⟨t, flush0_2 t, ?_⟩
  rw [mem_tile]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 512 ≤ (i 2).val ∧ (i 2).val < win0_2.index t (2 : Fin 3) * 512 + 512
    omega

/-- After the run the result array holds the specification of the two argument arrays. -/
theorem final (c : Dev nD) :
    (dats m 0 c).arrAt 2 cfg0.N = negDist (m ((c : Thread nD τ).loc main_arg0)) (m ((c : Thread nD τ).loc main_arg1)) :=
  (dats m 0 c).arrAt_eq_of_cover 2 (negDist (V m c main_arg0) (V m c main_arg1)) (fun t _ => flushed_eq m c t) tiles_cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v0)
        = negDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.L2Sim.Blocks

end
-- ==== Proof.Reference.lean ====
/-
  The reference program computes the negative pairwise distance.

  Read one operation at a time, entry (b, n, m) of the reference's result is
      -(sqrt (max ((0 + sum_k x(b,n,k)^2) + (0 + sum_k y(b,m,k)^2) - 2 * sum_k x(b,n,k) * y(b,m,k)) 0)):
  the two sums of squares are reduced along the last axis from the initial value zero and broadcast along the
  missing pair axis, the contraction pairs the last axes of the two arguments batch by batch. Adding zero changes
  nothing, so this is the specification's entry.
-/
import proofs.«176342_j37383395344617_2_alg».proof.Proof.Gen.ReferenceIdeal.Read
import proofs.«176342_j37383395344617_2_alg».proof.Proof.Spec

noncomputable section

open scoped BigOperators

namespace Cert.L2Sim.Ref

open Idealize.ShloMosaic Idealize.ShloMosaic.ValueIdx
open Cert.ReferenceIdeal Cert.ReferenceIdeal.Read Cert.L2Sim

/-- The reference's last stage is the negative pairwise distance of its two arguments. -/
theorem reference_eq (x0 x1 : (⟨S8x4096x512, .f32⟩ : BufTy).Contents (Elt Ideal)) :
    val_main_v16 (F := Ideal) x0 x1 = negDist x0 x1 := by
  funext i
  obtain ⟨b, n, m, rfl⟩ : ∃ (b : Fin 8) (n m : Fin 4096), i = ix3 b n m := ⟨i 0, i 1, i 2, eq_ix3 i⟩
  -- the composed index maps of the two norm columns and of the contraction, in coordinates
  have e1 : ∀ k : Fin 512, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 512, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 512, lidx_main_v4 (ix3 b n m) k = ix3 b n k := fun k =>
    funext fun a => Fin.ext (by match a with | ⟨0, _⟩ => rfl | ⟨1, _⟩ => rfl | ⟨2, _⟩ => rfl)
  have er : ∀ k : Fin 512, ridx_main_v4 (ix3 b n m) k = ix3 b m k := fun k =>
    funext fun a => Fin.ext (by match a with | ⟨0, _⟩ => rfl | ⟨1, _⟩ => rfl | ⟨2, _⟩ => rfl)
  rw [val_main_v16_apply, val_main_v15_apply, val_main_v14_apply, val_main_v13_apply, val_main_cst_2_apply,
    val_main_v12_apply, val_main_v9_apply, val_main_v11_apply, val_main_v10_apply, val_main_cst_1_apply,
    val_main_v4_apply, val_main_v7_apply, val_main_v5_apply, val_main_v1_apply, val_main_cst_apply,
    val_main_v8_apply, val_main_v6_apply, val_main_v3_apply, val_main_cst_0_apply]
  simp only [val_main_v0_apply, val_main_v2_apply, e1, e3, el, er, Ideal.hostNegf_def, Ideal.negf_def,
    Ideal.hostUnary_sqrt_def, Ideal.maximumf_def, Ideal.subf_def, Ideal.addf_def, Ideal.mulf_def, Ideal.ofBits_def,
    Ideal.ofBits_zero_f32, zero_add]
  rfl

end Cert.L2Sim.Ref

end
-- ==== Proof.lean ====
/-
  Negative pairwise Euclidean distance: a tiled kernel against the whole-array formula.

  Both programs take two stacks x, y of 8 batches of 4096 vectors of length 512 and return, per batch, the 4096 x 4096
  array whose entry (n, m) is
      -sqrt (max (|x_n|^2 + |y_m|^2 - 2 <x_n, y_m>) 0),
  the distance by the expansion |v - w|^2 = |v|^2 + |w|^2 - 2 <v, w>, clamped at zero before the root.

  The kernel walks an 8 x 2 x 8 grid of (batch, row tile, column tile); at each point it computes a 2048 x 512 tile
  from 2048 vectors of x and 512 vectors of y: squared lengths as lane sums, the inner products as one matrix product
  of the first block with the transposed second block (the operands rounded to a narrower format first, which on
  the extended reals is the identity), and it negates by subtracting from zero. The reference computes the two
  squared-length arrays and the batched contraction once, on whole arrays, adding its sums onto the initial value zero.

  On the extended reals the two are the same function entry by entry: each entry of a tile is the whole-array formula
  at that tile's position (Proof/Payload.lean, Proof/Blocks.lean), the tiles cover the result (Proof/Blocks.lean), and
  the reference's stages compose to the same formula (Proof/Reference.lean). No sum is reordered and nothing is
  cancelled or distributed, so the finiteness of the inputs is never used: 0 + s = s and 0 - s = -s hold for every
  extended real s.

  The three frames come with the programs' runs; the kernel's idealization rewrote nothing, so there is nothing to
  preserve.
-/
import proofs.«176342_j37383395344617_2_alg».proof.Defs
import proofs.«176342_j37383395344617_2_alg».proof.Proof.Gen.Kernel
import proofs.«176342_j37383395344617_2_alg».proof.Proof.Gen.Kernel.Skeleton
import proofs.«176342_j37383395344617_2_alg».proof.Proof.Gen.Kernel.Launch
import proofs.«176342_j37383395344617_2_alg».proof.Proof.Gen.Kernel.Points
import proofs.«176342_j37383395344617_2_alg».proof.Proof.Gen.Kernel.Frame
import proofs.«176342_j37383395344617_2_alg».proof.Proof.Gen.KernelIdeal
import proofs.«176342_j37383395344617_2_alg».proof.Proof.Gen.KernelIdeal.Skeleton
import proofs.«176342_j37383395344617_2_alg».proof.Proof.Gen.KernelIdeal.Launch
import proofs.«176342_j37383395344617_2_alg».proof.Proof.Gen.KernelIdeal.Points
import proofs.«176342_j37383395344617_2_alg».proof.Proof.Gen.KernelIdeal.Frame
import proofs.«176342_j37383395344617_2_alg».proof.Proof.Gen.ReferenceIdeal
import proofs.«176342_j37383395344617_2_alg».proof.Proof.Gen.KernelIdeal.Value
import proofs.«176342_j37383395344617_2_alg».proof.Proof.Gen.ReferenceIdeal.Run
import proofs.«176342_j37383395344617_2_alg».proof.Proof.Gen.ReferenceIdeal.Read
import proofs.«176342_j37383395344617_2_alg».proof.Proof.Gen.Pre_finite_inputs
import proofs.«176342_j37383395344617_2_alg».proof.Proof.Spec
import proofs.«176342_j37383395344617_2_alg».proof.Proof.Payload
import proofs.«176342_j37383395344617_2_alg».proof.Proof.Blocks
import proofs.«176342_j37383395344617_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end with the negative pairwise distance of their arguments: the kernel tile by
    tile, the reference stage by stage; the arguments agree, so the results do. -/
theorem algebraic : Cert.algebraic_KernelIdeal_ReferenceIdeal := by
  intro m ρ m' ρ' _ hagree
  refine ⟨_, Cert.L2Sim.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v16_eq _ _).trans (Cert.L2Sim.Ref.reference_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
